-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i32⟩
  | .hbm, ⟨4, _⟩ => ⟨S32x2048x64, .f32⟩
  | .hbm, ⟨5, _⟩ => ⟨S32x2048x64, .f32⟩
  | .hbm, ⟨6, _⟩ => ⟨S32x2048x2048, .i32⟩
  | .hbm, ⟨7, _⟩ => ⟨S32x2048x2048, .f32⟩
  | .hbm, ⟨8, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x2048, .i32⟩
  | .local _ .vmem, ⟨5, _⟩ => ⟨S1x512x2048, .i32⟩
  | .local _ .vmem, ⟨6, _⟩ => ⟨S1x512x2048, .f32⟩
  | .local _ .vmem, ⟨7, _⟩ => ⟨S1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  shapeCasts_S2x16x2048x2048_S32x2048x2048 : S2x16x2048x2048.ShapeCasts S32x2048x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S32x2048x2048_S2x16x2048x2048 : S32x2048x2048.ShapeCasts S2x16x2048x2048
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S32x2048x2048.size a
  hwx0_2 : ∀ i : grid0.Coords, EltTy.bits .i32 = 32 ∨ (Rect.block (s := S32x2048x2048) S1x512x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .f32 = 32 ∨ (Rect.block (s := S32x2048x2048) S1x512x2048.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i32⟩
  | .hbm, ⟨4, _⟩ => ⟨S_, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x16x2048x2048, .f32⟩
  | .hbm, ⟨9, _⟩ => ⟨S_, .i32⟩
  | .hbm, ⟨10, _⟩ => ⟨S2x16x2048x2048, .i32⟩
  | .hbm, ⟨11, _⟩ => ⟨S2x16x2048x2048, .i1⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S_, .f32⟩
  | .hbm, ⟨16, _⟩ => ⟨S2x16x2048, .f32⟩
  | .hbm, ⟨17, _⟩ => ⟨S_, .f32⟩
  | .hbm, ⟨18, _⟩ => ⟨S2x16x2048, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf

class Facts : Prop extends Facts₀ where

variable [Facts]
-- ==== Proof.RowSoftmax.lean ====
/-
  The softmax of one row of scores on the extended reals, in the one form in which both programs compute it: the
  row's maximum taken as a fold of `max` from a start value, every entry less that maximum exponentiated, and each
  exponential divided by the sum of them all. Beside it, the two facts that join the programs' scores. A nonnegative
  finite factor moves across a finite sum of extended reals (distributivity fails on the extended reals only for a
  negative or an infinite factor), so the contraction of an operand scaled entry by entry is the scaled contraction.
  And the words the two programs spell for the scale, 0.125 in one and 64.0 under a square root and a quotient in the
  other, denote 1/8 and 64: the square root of 64 is 8, and a quotient by 8 is the product with 1/8.
-/
import Idealize.ShloMosaic.PureOps.Ideal
import Mathlib.Data.Finset.Fold

noncomputable section

open scoped BigOperators

namespace Cert.AttnScores

open Idealize.ShloMosaic

/-- The softmax of a row at entry `j`: `exp (row j - M) / ∑ k, exp (row k - M)` with `M` the maximum of the row,
    folded from `start`. -/
def rowSoftmax {n : ℕ} (start : EReal) (row : Fin n → EReal) (j : Fin n) : EReal :=
  Ideal.div (Ideal.exp (row j - Finset.univ.fold max start row))
    (∑ k : Fin n, Ideal.exp (row k - Finset.univ.fold max start row))

/-- A maximum folded from `start` is at least `start`, so taking its maximum with `start` once more changes nothing. -/
theorem max_start_fold {n : ℕ} (start : EReal) (row : Fin n → EReal) :
    max start (Finset.univ.fold max start row) = Finset.univ.fold max start row :=
  max_eq_right ((Finset.le_fold_max _).mpr (Or.inl le_rfl))

/-- A nonnegative finite factor moves across a finite sum of extended reals. -/
theorem sum_mul_of_nonneg_of_ne_top {ι : Type} (s : Finset ι) (f : ι → EReal) {c : EReal} (h0 : 0 ≤ c) (ht : c ≠ ⊤) :
    (∑ i ∈ s, f i) * c = ∑ i ∈ s, f i * c := by
  classical
  refine Finset.induction_on s (by simp) fun a s ha ih => ?_
  rw [Finset.sum_insert ha, Finset.sum_insert ha, EReal.right_distrib_of_nonneg_of_ne_top h0 ht, ih]

/-- The word `0x3E000000` is 0.125: it denotes the real 1/8. -/
theorem ofBits_eighth : Ideal.ofBits .f32 0x3E000000#32 = ((1 / 8 : ℝ) : EReal) := by
  simp [Ideal.ofBits, Ideal.ieee, -EReal.coe_mul]; norm_num

/-- The word `0x42800000` is 64.0: it denotes the real 64. -/
theorem ofBits_sixtyfour : Ideal.ofBits .f32 0x42800000#32 = ((64 : ℝ) : EReal) := by
  simp [Ideal.ofBits, Ideal.ieee, -EReal.coe_mul]; norm_num

/-- The square root of 64 is 8. -/
theorem sqrt_sixtyfour : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- THE LAW that joins the two programs' scores: the contraction of `x` scaled by 0.125 against `y` is the
    contraction of `x` against `y` divided by the square root of 64.0 — `∑ (x·(1/8))·y = (∑ x·y)·(1/8)`, on every
    extended real, the infinities included. -/
theorem scaled_contraction {n : ℕ} (x y : Fin n → EReal) :
    ∑ d : Fin n, (x d * Ideal.ofBits .f32 0x3E000000#32) * y d
      = Ideal.div (∑ d : Fin n, x d * y d) (Ideal.sqrt (Ideal.ofBits .f32 0x42800000#32)) := by
  rw [ofBits_sixtyfour, sqrt_sixtyfour, Ideal.div_coe (by norm_num : (8 : ℝ) ≠ 0), ofBits_eighth,
    sum_mul_of_nonneg_of_ne_top _ _ (EReal.coe_nonneg.mpr (by norm_num)) (EReal.coe_ne_top _)]
  exact Finset.sum_congr rfl fun d _ => mul_right_comm _ _ _

end Cert.AttnScores

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.BlockBody.lean ====
/-
  What one grid point computes. The body reads a block of 512 query rows (64 features each), the 2048 key rows of
  the same batch-and-head, and a 512 × 2048 block of mask words, and stores one 512 × 2048 block. At row `r` and
  column `j` that block holds the softmax, over the 2048 keys, of row `r`'s masked scores, read at `j`. A score is the
  contraction over the 64 features of the query entry scaled by 0.125 against the key entry (the narrowing of both
  operands to sixteen bits is the identity on exact values); a masked score is the constant −10⁶ where the mask word
  is zero and the score elsewhere. The stages below name the body's intermediate values — the scores, the masked
  scores, the column of row maxima, the exponentials, the column of row sums, the quotient — exactly as the body
  computes them, so that the body's stored value IS their composition, and each stage is read at an index by itself:
  a matrix product into the zero accumulator as a sum over the contracted axis, a lane reduction as a fold or a sum
  over the row, a column `[512] → [512, 1] → [512, 2048]` as the row's one value.
-/
import proofs.«119219_j32315333935614_2_alg».proof.Proof.Gen.KernelIdeal.Skeleton
import proofs.«119219_j32315333935614_2_alg».proof.Proof.RowSoftmax
import proofs.«119219_j32315333935614_2_alg».proof.Proof.LibColumnBroadcast
import proofs.«119219_j32315333935614_2_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.AttnScores

open Idealize.ShloMosaic Idealize.ShloMosaic.ValueIdx Cert.KernelIdeal Cert.KernelIdeal.Gen

/-! ## The stages of the body -/

/-- The scores of the block: the 512 × 64 query block, scaled by 0.125, times the transposed 2048 × 64 key block. -/
def scoreBlk (x0 : FVec Ideal S1x512x64 .f32) (x1 : FVec Ideal S1x2048x64 .f32) : FVec Ideal S512x2048 .f32 :=
  matmul dot_S512x64_S64x2048_S512x2048_1_0_0_1_n_n none
    (truncf .bf16 (mulf (shapeCast S512x64 x0 shapeCasts_S1x512x64_S512x64) (broadcast S512x64 (Scalar.ofBits (F := Ideal) .f32 0x3E000000#32))) bitsLt_bf16_f32)
    (transpose S64x2048 [1, 0] (truncf .bf16 (shapeCast S2048x64 x1 shapeCasts_S1x2048x64_S2048x64) bitsLt_bf16_f32) transposes_S2048x64_p1_0_S64x2048)
    (constant (F := Ideal) S512x2048 .f32 0x00000000#32)

/-- The masked scores: −10⁶ where the mask word is zero. -/
def maskBlk (x2 : IVec S1x512x2048 32) (s : FVec Ideal S512x2048 .f32) : FVec Ideal S512x2048 .f32 :=
  select (cmpi .eq (shapeCast S512x2048 x2 shapeCasts_S1x512x2048_S512x2048 : IVec S512x2048 32) (broadcast S512x2048 (0#32 : BitVec 32)))
    (broadcast S512x2048 (Scalar.ofBits (F := Ideal) .f32 0xC9742400#32)) s

/-- Each row's maximum, repeated along the row. -/
def maxCol (t : FVec Ideal S512x2048 .f32) : FVec Ideal S512x2048 .f32 :=
  broadcastTo S512x2048
    (shapeCast S512x1 (multiReduction .maximumf [1] S512 t 0xFF800000#32 reduces_S512x2048_S512 (.inl rfl) rfl) shapeCasts_S512_S512x1)
    broadcasts_S512x1_S512x2048

/-- The exponentials of the entries less their row's maximum. -/
def expBlk (t : FVec Ideal S512x2048 .f32) : FVec Ideal S512x2048 .f32 := exp (subf t (maxCol t))

/-- Each row's sum, repeated along the row. -/
def sumCol (e : FVec Ideal S512x2048 .f32) : FVec Ideal S512x2048 .f32 :=
  broadcastTo S512x2048
    (shapeCast S512x1 (multiReduction .add [1] S512 e 0x00000000#32 reduces_S512x2048_S512 (.inl rfl) rfl) shapeCasts_S512_S512x1)
    broadcasts_S512x1_S512x2048

/-- The stored block: every exponential divided by its row's sum. -/
def outBlk (t : FVec Ideal S512x2048 .f32) : FVec Ideal S1x512x2048 .f32 :=
  shapeCast S1x512x2048 (divf (expBlk t) (sumCol (expBlk t))) shapeCasts_S512x2048_S1x512x2048

/-- The body's stored value is the composition of the stages. -/
theorem pay_eq (x0 : FVec Ideal S1x512x64 .f32) (x1 : FVec Ideal S1x2048x64 .f32) (x2 : IVec S1x512x2048 32) :
    k0_pay1 (F := Ideal) x0 x1 x2 = outBlk (maskBlk x2 (scoreBlk x0 x1)) := rfl

/-! ## The scores at an index -/

theorem lhs_row (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem lhs_feature (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem rhs_feature (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem rhs_col (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- The score of query row `r` against key row `j`: the sum over the 64 features of the scaled query entry times the
    key entry. -/
theorem scoreBlk_apply (x0 : FVec Ideal S1x512x64 .f32) (x1 : FVec Ideal S1x2048x64 .f32) (r : Fin 512) (j : Fin 2048) :
    scoreBlk x0 x1 (ix2 r j)
      = ∑ d : Fin 64, (x0 (ix3 (0 : Fin 1) r d) * Ideal.ofBits .f32 0x3E000000#32) * x1 (ix3 (0 : Fin 1) j d) := by
  unfold scoreBlk
  simp only [matmul]
  rw [Ideal.matmul_constant_zero_apply, ← Equiv.sum_comp (contrEquiv1 dot_S512x64_S64x2048_S512x2048_1_0_0_1_n_n 64 rfl rfl).symm]
  refine Finset.sum_congr rfl fun d _ => ?_
  have hk := contrEquiv1_symm_val dot_S512x64_S64x2048_S512x2048_1_0_0_1_n_n 64 rfl rfl d
  have el : dot_S512x64_S64x2048_S512x2048_1_0_0_1_n_n.lhsIdx (ix2 r j) ((contrEquiv1 dot_S512x64_S64x2048_S512x2048_1_0_0_1_n_n 64 rfl rfl).symm d) = ix2 r d := funext fun a => Fin.ext (by
    match a with
    | ⟨0, _⟩ => exact lhs_row _ _
    | ⟨1, _⟩ => exact (lhs_feature _ _).trans hk)
  have er : dot_S512x64_S64x2048_S512x2048_1_0_0_1_n_n.rhsIdx (ix2 r j) ((contrEquiv1 dot_S512x64_S64x2048_S512x2048_1_0_0_1_n_n 64 rfl rfl).symm d) = ix2 d j := funext fun a => Fin.ext (by
    match a with
    | ⟨0, _⟩ => exact (rhs_feature _ _).trans hk
    | ⟨1, _⟩ => exact rhs_col _ _)
  rw [el, er, truncf_apply, mulf_apply, shapeCast_1ab_ab_apply, broadcast_apply, transpose_ix2_apply, truncf_apply,
    shapeCast_1ab_ab_apply]
  rfl

/-! ## The mask, the two columns and the exponentials at an index -/

theorem maskBlk_apply (x2 : IVec S1x512x2048 32) (s : FVec Ideal S512x2048 .f32) (r : Fin 512) (j : Fin 2048) :
    maskBlk x2 s (ix2 r j)
      = Scalar.select (IntOp.cmpi .eq (x2 (ix3 (0 : Fin 1) r j)) 0#32) (Ideal.ofBits .f32 0xC9742400#32) (s (ix2 r j)) := by
  unfold maskBlk
  show Scalar.select (IntOp.cmpi .eq (shapeCast S512x2048 x2 shapeCasts_S1x512x2048_S512x2048 (ix2 r j)) 0#32) _ _ = _
  rw [shapeCast_1ab_ab_apply]
  rfl

/-- Inserting the column `k` into the row index `r` gives the entry `(r, k)`. -/
theorem lift_row (h : S512x2048.Reduces [1] S512) (r : Fin 512) (k : Fin 2048) : h.lift (ix1 r) k = ix2 r k :=
  funext fun a => Fin.ext (by match a with | ⟨0, _⟩ => rfl | ⟨1, _⟩ => rfl)

/-- The column of maxima at `(r, j)` is the maximum of row `r`, folded from −∞'s word. -/
theorem maxCol_apply (t : FVec Ideal S512x2048 .f32) (r : Fin 512) (j : Fin 2048) :
    maxCol t (ix2 r j) = Finset.univ.fold max (Ideal.ofBits .f32 0xFF800000#32) (fun k : Fin 2048 => t (ix2 r k)) := by
  unfold maxCol
  rw [broadcastTo_a1_ab_apply, Cert.LibKeepdims.shapeCast_a_a1_apply]
  refine (Ideal.multiReduction_maximumf_single t 0xFF800000#32 reduces_S512x2048_S512 (.inl rfl) rfl (ix1 r)).trans ?_
  exact congrArg (fun f : Fin 2048 → EReal => Finset.univ.fold max (Ideal.ofBits .f32 0xFF800000#32) f)
    (funext fun k => congrArg t (lift_row _ r k))

theorem expBlk_apply (t : FVec Ideal S512x2048 .f32) (r : Fin 512) (j : Fin 2048) :
    expBlk t (ix2 r j)
      = Ideal.exp (t (ix2 r j) - Finset.univ.fold max (Ideal.ofBits .f32 0xFF800000#32) (fun k : Fin 2048 => t (ix2 r k))) := by
  rw [← maxCol_apply t r j]
  rfl

/-- The column of sums at `(r, j)` is the sum of row `r`. -/
theorem sumCol_apply (e : FVec Ideal S512x2048 .f32) (r : Fin 512) (j : Fin 2048) :
    sumCol e (ix2 r j) = ∑ k : Fin 2048, e (ix2 r k) := by
  unfold sumCol
  rw [broadcastTo_a1_ab_apply, Cert.LibKeepdims.shapeCast_a_a1_apply]
  refine (Ideal.multiReduction_add_single e 0x00000000#32 reduces_S512x2048_S512 (.inl rfl) rfl (ix1 r)).trans ?_
  exact Finset.sum_congr rfl fun k _ => congrArg e (lift_row _ r k)

/-! ## The stored block at an index -/

/-- Row `r`'s masked scores, from the three blocks the body loads. -/
def blockRow (x0 : FVec Ideal S1x512x64 .f32) (x1 : FVec Ideal S1x2048x64 .f32) (x2 : IVec S1x512x2048 32) (r : Fin 512) :
    Fin 2048 → EReal := fun k =>
  Scalar.select (IntOp.cmpi .eq (x2 (ix3 (0 : Fin 1) r k)) 0#32) (Ideal.ofBits .f32 0xC9742400#32)
    (∑ d : Fin 64, (x0 (ix3 (0 : Fin 1) r d) * Ideal.ofBits .f32 0x3E000000#32) * x1 (ix3 (0 : Fin 1) k d))

/-- WHAT THE BODY STORES at row `r`, column `j` of its block: the softmax of row `r`'s masked scores, at `j`. -/
theorem pay_apply (x0 : FVec Ideal S1x512x64 .f32) (x1 : FVec Ideal S1x2048x64 .f32) (x2 : IVec S1x512x2048 32)
    (r : Fin 512) (j : Fin 2048) :
    k0_pay1 (F := Ideal) x0 x1 x2 (ix3 (0 : Fin 1) r j)
      = rowSoftmax (Ideal.ofBits .f32 0xFF800000#32) (blockRow x0 x1 x2 r) j := by
  have hrow : ∀ k : Fin 2048, maskBlk x2 (scoreBlk x0 x1) (ix2 r k) = blockRow x0 x1 x2 r k := fun k => by
    rw [maskBlk_apply, scoreBlk_apply]; rfl
  rw [pay_eq]
  unfold outBlk
  rw [shapeCast_ab_1ab_apply]
  show Ideal.div (expBlk _ (ix2 r j)) (sumCol _ (ix2 r j)) = _
  rw [sumCol_apply, expBlk_apply]
  simp only [expBlk_apply, hrow]
  rfl

end Cert.AttnScores

end
-- ==== Proof.BlocksToArray.lean ====
/-
  From blocks to the array. The grid has 32 × 4 points; point (g, s) stages query rows 512·s … 512·s + 511 of
  batch-and-head g, all 2048 key rows of g, and the same 512 rows of g's mask, and writes back rows
  512·s … 512·s + 511 of g's 2048 × 2048 result. Every entry of that result is therefore ONE function of the three
  staged arrays: at (g, i, j) the softmax, over the keys, of row i's masked scores in head g, read at j — a score
  being the contraction over the 64 features of the scaled query entry against the key entry. Each point's block is
  the restriction of that function to the point's rows (the block's rows sit at 512·s + r, its head at g, and the
  key and column axes are whole), and the 128 blocks tile the array, so after the region the array IS that function.
-/
import proofs.«119219_j32315333935614_2_alg».proof.Proof.Gen.KernelIdeal.Frame
import proofs.«119219_j32315333935614_2_alg».proof.Proof.BlockBody
import Idealize.ShloMosaic.Lib.Pipeline.Value

noncomputable section

open scoped BigOperators

namespace Cert.AttnScores

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The array as one function of the staged arrays -/

/-- Row `i` of head `g`: its masked scores against every key. -/
def headRow (Q K : FVec Ideal S32x2048x64 .f32) (M : IVec S32x2048x2048 32) (g : Fin 32) (i : Fin 2048) : Fin 2048 → EReal :=
  fun k =>
    Scalar.select (IntOp.cmpi .eq (M (ix3 g i k)) 0#32) (Ideal.ofBits .f32 0xC9742400#32)
      (∑ d : Fin 64, (Q (ix3 g i d) * Ideal.ofBits .f32 0x3E000000#32) * K (ix3 g k d))

/-- The result array of the region: at `(g, i, j)` the softmax of row `i` of head `g`, read at `j`. -/
def headsSoftmax (Q K : FVec Ideal S32x2048x64 .f32) (M : IVec S32x2048x2048 32) : FVec Ideal S32x2048x2048 .f32 := fun y =>
  rowSoftmax (Ideal.ofBits .f32 0xFF800000#32) (headRow Q K M ⟨(y 0).val, (y 0).isLt⟩ ⟨(y 1).val, (y 1).isLt⟩)
    ⟨(y 2).val, (y 2).isLt⟩

theorem headsSoftmax_ix3 (Q K : FVec Ideal S32x2048x64 .f32) (M : IVec S32x2048x2048 32) (g : Fin 32) (i j : Fin 2048) :
    headsSoftmax Q K M (ix3 g i j) = rowSoftmax (Ideal.ofBits .f32 0xFF800000#32) (headRow Q K M g i) j := rfl

/-! ## The index maps, decided over the 128 points -/

theorem hz : (![0, 0, 0] : Fin 3 → Nat) = fun _ => 0 := funext fun a => by fin_cases a <;> rfl

/-- The output's block indices stay in their ranges: head below 32, row block below 4, the column axis whole. -/
theorem idx_bounds : ∀ t : Fin cfg0.N, win0_3.index t (0 : Fin 3) < 32 ∧ win0_3.index t (1 : Fin 3) < 4
    ∧ win0_3.index t (2 : Fin 3) = 0 :=
  (by decide +kernel : ∀ t : Fin grid0.N, _)

/-- Each input window against the output's: the queries and the mask move with the output on the head and row-block
    axes, the keys on the head axis only; every other block index is zero. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0 :=
  (by decide +kernel : ∀ t : Fin grid0.N, _)

/-- Every (head, row block) is some point's. -/
theorem idx_onto : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-- The head a point works on, -/
def headOf (t : Fin cfg0.N) : Fin 32 := ⟨win0_3.index t (0 : Fin 3), (idx_bounds t).1⟩
/-- and the array row of its block's row `r`. -/
def rowOf (t : Fin cfg0.N) (r : Fin 512) : Fin 2048 :=
  ⟨win0_3.index t (1 : Fin 3) * 512 + r.val, by have := (idx_bounds t).2.1; have := r.isLt; omega⟩

/-! ## Where each block's entries sit in its array -/

theorem emb_out (t : Fin cfg0.N) (r : Fin 512) (j : Fin 2048) :
    ((cfg0.win 3).blk t).view.emb (ix3 (0 : Fin 1) r j) = ix3 (headOf t) (rowOf t r) j := by
  obtain ⟨-, -, e2⟩ := idx_bounds t
  funext a; apply Fin.ext
  match a with
  | ⟨0, _⟩ => show win0_3.index t (0 : Fin 3) * 1 + 1 * 0 = win0_3.index t (0 : Fin 3); omega
  | ⟨1, _⟩ => show win0_3.index t (1 : Fin 3) * 512 + 1 * r.val = win0_3.index t (1 : Fin 3) * 512 + r.val; omega
  | ⟨2, _⟩ => show win0_3.index t (2 : Fin 3) * 2048 + 1 * j.val = j.val; omega

theorem emb_query (t : Fin cfg0.N) (r : Fin 512) (d : Fin 64) :
    ((cfg0.win 0).blk t).view.emb (ix3 (0 : Fin 1) r d) = ix3 (headOf t) (rowOf t r) d := by
  obtain ⟨e0, e1, e2, -⟩ := idx_facts t
  funext a; apply Fin.ext
  match a with
  | ⟨0, _⟩ => show win0_0.index t (0 : Fin 3) * 1 + 1 * 0 = win0_3.index t (0 : Fin 3); omega
  | ⟨1, _⟩ => show win0_0.index t (1 : Fin 3) * 512 + 1 * r.val = win0_3.index t (1 : Fin 3) * 512 + r.val; omega
  | ⟨2, _⟩ => show win0_0.index t (2 : Fin 3) * 64 + 1 * d.val = d.val; omega

theorem emb_key (t : Fin cfg0.N) (k : Fin 2048) (d : Fin 64) :
    ((cfg0.win 1).blk t).view.emb (ix3 (0 : Fin 1) k d) = ix3 (headOf t) k d := by
  obtain ⟨-, -, -, e0, e1, e2, -⟩ := idx_facts t
  funext a; apply Fin.ext
  match a with
  | ⟨0, _⟩ => show win0_1.index t (0 : Fin 3) * 1 + 1 * 0 = win0_3.index t (0 : Fin 3); omega
  | ⟨1, _⟩ => show win0_1.index t (1 : Fin 3) * 2048 + 1 * k.val = k.val; omega
  | ⟨2, _⟩ => show win0_1.index t (2 : Fin 3) * 64 + 1 * d.val = d.val; omega

theorem emb_mask (t : Fin cfg0.N) (r : Fin 512) (k : Fin 2048) :
    ((cfg0.win 2).blk t).view.emb (ix3 (0 : Fin 1) r k) = ix3 (headOf t) (rowOf t r) k := by
  obtain ⟨-, -, -, -, -, -, e0, e1, e2⟩ := idx_facts t
  funext a; apply Fin.ext
  match a with
  | ⟨0, _⟩ => show win0_2.index t (0 : Fin 3) * 1 + 1 * 0 = win0_3.index t (0 : Fin 3); omega
  | ⟨1, _⟩ => show win0_2.index t (1 : Fin 3) * 512 + 1 * r.val = win0_3.index t (1 : Fin 3) * 512 + r.val; omega
  | ⟨2, _⟩ => show win0_2.index t (2 : Fin 3) * 2048 + 1 * k.val = k.val; omega

/-- The query block at a point: rows `512·s + r` of head `g`. -/
theorem blk_query (c : Dev nD) (t : Fin cfg0.N) (r : Fin 512) (d : Fin 64) :
    (iblk m c 0 t : FVec Ideal S1x512x64 .f32) (ix3 (0 : Fin 1) r d)
      = (V m c main_v0 : FVec Ideal S32x2048x64 .f32) (ix3 (headOf t) (rowOf t r) d) := by
  show V m c main_v0 (((cfg0.win 0).blk t).view.emb (ix3 (0 : Fin 1) r d)) = _
  rw [emb_query t r d]

/-- The key block at a point: every row of head `g`. -/
theorem blk_key (c : Dev nD) (t : Fin cfg0.N) (k : Fin 2048) (d : Fin 64) :
    (iblk m c 1 t : FVec Ideal S1x2048x64 .f32) (ix3 (0 : Fin 1) k d)
      = (V m c main_v1 : FVec Ideal S32x2048x64 .f32) (ix3 (headOf t) k d) := by
  show V m c main_v1 (((cfg0.win 1).blk t).view.emb (ix3 (0 : Fin 1) k d)) = _
  rw [emb_key t k d]

/-- The mask block at a point: rows `512·s + r` of head `g`. -/
theorem blk_mask (c : Dev nD) (t : Fin cfg0.N) (r : Fin 512) (k : Fin 2048) :
    (iblk m c 2 t : IVec S1x512x2048 32) (ix3 (0 : Fin 1) r k)
      = (V m c main_v2 : IVec S32x2048x2048 32) (ix3 (headOf t) (rowOf t r) k) := by
  show V m c main_v2 (((cfg0.win 2).blk t).view.emb (ix3 (0 : Fin 1) r k)) = _
  rw [emb_mask t r k]

/-- Row `r` of a point's block of masked scores is row `512·s + r` of its head's. -/
theorem row_eq (c : Dev nD) (t : Fin cfg0.N) (r : Fin 512) :
    blockRow (iblk m c 0 t) (iblk m c 1 t) (iblk m c 2 t) r
      = headRow (V m c main_v0) (V m c main_v1) (V m c main_v2) (headOf t) (rowOf t r) := by
  funext k
  unfold blockRow headRow
  rw [blk_mask m c t r k]
  exact congrArg (Scalar.select _ _) (Finset.sum_congr rfl fun d _ => by rw [blk_query m c t r d, blk_key m c t k d])

/-! ## What each point writes back, the cover, the array -/

/-- WHAT POINT `t` WRITES BACK is block `t` of `headsSoftmax` of the staged arrays as the region finds them. -/
theorem flushed_eq (c : Dev nD) (t : Fin cfg0.N) :
    (dats m 0 c).flushed 3 t
      = ((cfg0.win 3).blk t).view.read (Elt Ideal) (headsSoftmax (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz,
    View.ld_unit_zero (S := S1x512x2048) hz]
  funext y
  obtain ⟨u, r, j, rfl⟩ : ∃ (u : Fin 1) (r : Fin 512) (j : Fin 2048), y = ix3 u r j := ⟨y 0, y 1, y 2, eq_ix3 y⟩
  obtain rfl : u = 0 := Subsingleton.elim _ _
  show k0_pay1 (iblk m c 0 t) (iblk m c 1 t) (iblk m c 2 t) (ix3 (0 : Fin 1) r j)
    = headsSoftmax (V m c main_v0) (V m c main_v1) (V m c main_v2) (((cfg0.win 3).blk t).view.emb (ix3 (0 : Fin 1) r j))
  rw [emb_out t r j, headsSoftmax_ix3]
  refine (pay_apply (iblk m c 0 t) (iblk m c 1 t) (iblk m c 2 t) r j).trans ?_
  exact congrArg (fun row => rowSoftmax (Ideal.ofBits .f32 0xFF800000#32) row j) (row_eq m c t r)

/-- An index of the array is in point `t`'s block iff each coordinate is in the block's range on its axis. -/
theorem mem_blk (t : Fin cfg0.N) (i : S32x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v3).slice (win0_3.rect t)).set ↔ _
  rw [View.set_slice_whole, Rect.mem_set_unit]
  exact Iff.rfl

/-- THE COVER: every index of the array lies in the block of the point of its head and of its row's block of 512. -/
theorem cover (i : S32x2048x2048.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- THE ARRAY after the region: `headsSoftmax` of the three staged arrays. -/
theorem final_out (c : Dev nD) :
    (dats m 0 c).arrAt 3 cfg0.N = headsSoftmax (V m c main_v0) (V m c main_v1) (V m c main_v2) :=
  (dats m 0 c).arrAt_eq_of_cover 3 _ (fun t _ => flushed_eq m c t) cover

end Cert.AttnScores

end
-- ==== Proof.ScoreSpec.lean ====
/-
  The function both programs compute, over the argument arrays as given: `q`, `k` of shape [2, 16, 2048, 64] and a
  mask of 32-bit words of shape [2, 16, 2048, 2048]. At batch `b`, head `h`, query row `i` and key `j` the result is the
  softmax, over the 2048 keys, of row `i`'s masked scores, read at `j`; the score of row `i` against key `kk` is
  `∑ d, (q[b,h,i,d] · 0.125) · k[b,h,kk,d]`, and a masked score is the constant −10⁶ where the mask word is zero.
-/
import proofs.«119219_j32315333935614_2_alg».proof.Proof.RowSoftmax
import Idealize.ShloMosaic.Lib.ValueIdx

noncomputable section

open scoped BigOperators

namespace Cert.AttnScores

open Idealize.ShloMosaic Idealize.ShloMosaic.ValueIdx

/-- Row `i` of batch `b`, head `h`: its masked scores against every key. -/
def scoreRow (q k : (⟨4, ![2, 16, 2048, 64]⟩ : Shape).Idx → EReal) (mask : (⟨4, ![2, 16, 2048, 2048]⟩ : Shape).Idx → BitVec 32)
    (b : Fin 2) (h : Fin 16) (i : Fin 2048) : Fin 2048 → EReal := fun kk =>
  Scalar.select (IntOp.cmpi .eq (mask (ix4 b h i kk)) 0#32) (Ideal.ofBits .f32 0xC9742400#32)
    (∑ d : Fin 64, (q (ix4 b h i d) * Ideal.ofBits .f32 0x3E000000#32) * k (ix4 b h kk d))

/-- The attention scores: at `(b, h, i, j)` the softmax of row `i`'s masked scores, read at `j`. -/
def attnScores (q k : (⟨4, ![2, 16, 2048, 64]⟩ : Shape).Idx → EReal) (mask : (⟨4, ![2, 16, 2048, 2048]⟩ : Shape).Idx → BitVec 32) :
    (⟨4, ![2, 16, 2048, 2048]⟩ : Shape).Idx → EReal := fun y =>
  rowSoftmax (Ideal.ofBits .f32 0xFF800000#32)
    (scoreRow q k mask ⟨(y 0).val, (y 0).isLt⟩ ⟨(y 1).val, (y 1).isLt⟩ ⟨(y 2).val, (y 2).isLt⟩) ⟨(y 3).val, (y 3).isLt⟩

theorem attnScores_ix4 (q k : (⟨4, ![2, 16, 2048, 64]⟩ : Shape).Idx → EReal) (mask : (⟨4, ![2, 16, 2048, 2048]⟩ : Shape).Idx → BitVec 32)
    (b : Fin 2) (h : Fin 16) (i j : Fin 2048) :
    attnScores q k mask (ix4 b h i j) = rowSoftmax (Ideal.ofBits .f32 0xFF800000#32) (scoreRow q k mask b h i) j := rfl

end Cert.AttnScores

end
-- ==== Proof.LibMergeLeading.lean ====
/-
  Two leading axes merged into one, read at an index. Row-major, an `[a, b, c, d]` array and the `[a·b, c, d]` array
  of the same elements agree where the merged coordinate is `g = p·b + q`: both sides' flat position is
  `((p·b + q)·c + i)·d + e`. Both directions: merging the axes (a `[batch, heads, …]` array seen as a stack of
  `batch·heads` matrices) and splitting them again.
-/
import Idealize.ShloMosaic.Lib.ValueLayout

namespace Cert.Lib.MergeLeading

open Idealize.ShloMosaic Idealize.ShloMosaic.ValueIdx

variable {α : Type}

/-- An `[a, b, c, d]` array cast to `[m, c, d]` (`m = a·b`) reads, at `(g, i, e)` with `g = p·b + q`, the operand at
    `(p, q, i, e)`. -/
theorem shapeCast_abcd_mcd_apply {a b c d m : ℕ} (x : (⟨4, ![a, b, c, d]⟩ : Shape).Idx → α)
    (h : (⟨4, ![a, b, c, d]⟩ : Shape).ShapeCasts ⟨3, ![m, c, d]⟩) (p : Fin a) (q : Fin b) (i : Fin c) (e : Fin d)
    (g : Fin m) (hg : g.val = p.val * b + q.val) :
    shapeCast ⟨3, ![m, c, d]⟩ x h (ix3 g i e) = x (ix4 p q i e) :=
  shapeCast_apply x h _ _ (by
    rw [Shape.rowMajor_val_four, Shape.rowMajor_val_three]
    show ((p.val * b + q.val) * c + i.val) * d + e.val = (g.val * c + i.val) * d + e.val
    rw [hg])

/-- An `[m, c, d]` array cast to `[a, b, c, d]` (`m = a·b`) reads, at `(p, q, i, e)`, the operand at `(g, i, e)` with
    `g = p·b + q`. -/
theorem shapeCast_mcd_abcd_apply {a b c d m : ℕ} (x : (⟨3, ![m, c, d]⟩ : Shape).Idx → α)
    (h : (⟨3, ![m, c, d]⟩ : Shape).ShapeCasts ⟨4, ![a, b, c, d]⟩) (p : Fin a) (q : Fin b) (i : Fin c) (e : Fin d)
    (g : Fin m) (hg : g.val = p.val * b + q.val) :
    shapeCast ⟨4, ![a, b, c, d]⟩ x h (ix4 p q i e) = x (ix3 g i e) :=
  shapeCast_apply x h _ _ (by
    rw [Shape.rowMajor_val_three, Shape.rowMajor_val_four]
    show (g.val * c + i.val) * d + e.val = ((p.val * b + q.val) * c + i.val) * d + e.val
    rw [hg])

end Cert.Lib.MergeLeading
-- ==== Proof.KernelValue.lean ====
/-
  The kernel program's result. Before the region the host merges the batch and head axes of `q`, `k` and the mask,
  [2, 16, …] into [32, …] (the same elements, row-major: head `g = 16·b + h`); the region leaves its [32, 2048, 2048]
  array at `headsSoftmax` of those three; after the region the host splits the merged axis again. Read at
  `(b, h, i, j)` the split result is the region's array at `(16·b + h, i, j)`, whose scores read `q`, `k` and the mask
  at `(16·b + h, ·, ·)` of the merged arrays, that is at `(b, h, ·, ·)` of the arguments: the program's result is
  `attnScores` of its arguments, and `v` is returned as given.
-/
import proofs.«119219_j32315333935614_2_alg».proof.Proof.BlocksToArray
import proofs.«119219_j32315333935614_2_alg».proof.Proof.ScoreSpec
import proofs.«119219_j32315333935614_2_alg».proof.Proof.LibMergeLeading
import Idealize.ShloMosaic.Lib.StableHlo.Run

noncomputable section

open scoped BigOperators

namespace Cert.AttnScores

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Lib.MergeLeading

variable (m : (ℓ : Loc nD τ sig) → Buf (Elt Ideal) ℓ) (ρ : Dev nD → PrngReg)

/-! ## The three staged arrays are the arguments with their leading axes merged -/

theorem staged_query (c : Dev nD) :
    (V m c main_v0 : FVec Ideal S32x2048x64 .f32)
      = shapeCast S32x2048x64 (m ((c : Thread nD τ).loc main_arg0)) shapeCasts_S2x16x2048x64_S32x2048x64 := by
  show StableHlo.after hostOps0 (fun b => m (c, b)) (Proc.devRef .tc main_v0) = _
  after_results
  rfl

theorem staged_key (c : Dev nD) :
    (V m c main_v1 : FVec Ideal S32x2048x64 .f32)
      = shapeCast S32x2048x64 (m ((c : Thread nD τ).loc main_arg1)) shapeCasts_S2x16x2048x64_S32x2048x64 := by
  show StableHlo.after hostOps0 (fun b => m (c, b)) (Proc.devRef .tc main_v1) = _
  after_results
  rfl

theorem staged_mask (c : Dev nD) :
    (V m c main_v2 : IVec S32x2048x2048 32)
      = shapeCast S32x2048x2048 (m ((c : Thread nD τ).loc main_arg3)) shapeCasts_S2x16x2048x2048_S32x2048x2048 := by
  show StableHlo.after hostOps0 (fun b => m (c, b)) (Proc.devRef .tc main_v2) = _
  after_results
  rfl

/-! ## The host line after the region -/

/-- The program's first result: the region's array with its leading axis split. -/
theorem tail_result (c : Dev nD) :
    (Pipeline.afterTail₀ cfgs (dats m) 0 (V0 m) [hostOps1] c main_v4 : FVec Ideal S2x16x2048x2048 .f32)
      = shapeCast S2x16x2048x2048 (headsSoftmax (V m c main_v0) (V m c main_v1) (V m c main_v2))
          shapeCasts_S32x2048x2048_S2x16x2048x2048 := by
  have hA := (Pipeline.withArrays_arr spec0 launch0.win.arr_inj c (V0 m c)
    (fun w => (dats m 0 c).arrAt w cfg0.N) 3).trans (final_out m c)
  unfold Pipeline.afterTail₀
  show StableHlo.after hostOps1 _ (Proc.devRef .tc main_v4) = _
  after_results
  exact congrArg (fun A : FVec Ideal S32x2048x2048 .f32 =>
    shapeCast S2x16x2048x2048 A shapeCasts_S32x2048x2048_S2x16x2048x2048) hA

/-! ## Splitting the merged axis -/

/-- `headsSoftmax` of the merged arguments, with its leading axis split, is `attnScores` of the arguments. -/
theorem split_heads (q k : FVec Ideal S2x16x2048x64 .f32) (mask : IVec S2x16x2048x2048 32)
    (h1 : S2x16x2048x64.ShapeCasts S32x2048x64) (h2 : S2x16x2048x2048.ShapeCasts S32x2048x2048)
    (h3 : S32x2048x2048.ShapeCasts S2x16x2048x2048) :
    shapeCast S2x16x2048x2048
        (headsSoftmax (shapeCast S32x2048x64 q h1) (shapeCast S32x2048x64 k h1) (shapeCast S32x2048x2048 mask h2)) h3
      = attnScores q k mask := by
  funext y
  obtain ⟨b, h, i, j, rfl⟩ : ∃ (b : Fin 2) (h : Fin 16) (i j : Fin 2048), y = ix4 b h i j := ⟨y 0, y 1, y 2, y 3, eq_ix4 y⟩
  obtain ⟨g, hg⟩ : ∃ g : Fin 32, g.val = b.val * 16 + h.val :=
    ⟨⟨b.val * 16 + h.val, by have := b.isLt; have := h.isLt; omega⟩, rfl⟩
  have hq : ∀ d : Fin 64, shapeCast S32x2048x64 q h1 (ix3 g i d) = q (ix4 b h i d) := fun d =>
    shapeCast_abcd_mcd_apply q h1 b h i d g hg
  have hk : ∀ (kk : Fin 2048) (d : Fin 64), shapeCast S32x2048x64 k h1 (ix3 g kk d) = k (ix4 b h kk d) := fun kk d =>
    shapeCast_abcd_mcd_apply k h1 b h kk d g hg
  have hm : ∀ kk : Fin 2048, shapeCast S32x2048x2048 mask h2 (ix3 g i kk) = mask (ix4 b h i kk) := fun kk =>
    shapeCast_abcd_mcd_apply mask h2 b h i kk g hg
  rw [shapeCast_mcd_abcd_apply _ h3 b h i j g hg, headsSoftmax_ix3, attnScores_ix4]
  refine congrArg (fun row => rowSoftmax (Ideal.ofBits .f32 0xFF800000#32) row j) (funext fun kk => ?_)
  simp only [headRow, scoreRow, hq, hk, hm]

/-! ## The run -/

/-- Every weakly fair execution of the kernel program terminates with its first result at `attnScores` of the
    arguments, its second result `v` as given, and the arguments unchanged. -/
theorem run : θ_run defs (onTc (τ := τ) (main (F := Ideal))) ⟨m, fun _ => 0, ρ⟩ fun r => ∀ c : Dev nD,
      r.2.mem ((c.tc : Thread nD τ).loc main_v4)
        = attnScores (m ((c.tc : Thread nD τ).loc main_arg0)) (m ((c.tc : Thread nD τ).loc main_arg1))
            (m ((c.tc : Thread nD τ).loc main_arg3))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v4 (Pipeline.mem_restRefs_of main_v4 (by decide) (by decide))).trans
        ((tail_result m c).trans (by
          rw [staged_query m c, staged_key m c, staged_mask m c]
          exact split_heads _ _ _ _ _ _)),
      ((h c).2 main_arg2 (Pipeline.mem_restRefs_of main_arg2 (by decide) (by decide))).trans (W_main_arg2 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.AttnScores

end
-- ==== Proof.ReferenceValue.lean ====
/-
  The reference is `attnScores`. Its program divides the contraction of `q` against `k` by the square root of 64,
  replaces the quotient by −10⁶ where the mask word is zero, and takes the softmax along the keys the way jax spells it:
  the row's maximum (a max-reduce from −∞, then once more the maximum with −∞, which changes nothing), the
  exponentials of the entries less that maximum, their sum from zero, the quotient. Read at an index each operation is
  one element of its operands; the max-reduce is the fold of `max` over the row, and the quotient by the square root
  of 64 is the contraction of `q` scaled by 0.125 (`scaled_contraction`).
-/
import proofs.«119219_j32315333935614_2_alg».proof.Proof.Gen.ReferenceIdeal.Read
import proofs.«119219_j32315333935614_2_alg».proof.Proof.ScoreSpec
import Idealize.ShloMosaic.Lib.ValueIdx
import Idealize.ShloMosaic.PureOps.Ideal.Laws

noncomputable section

open scoped BigOperators

namespace Cert.AttnScores.Reference

open Cert.ReferenceIdeal Cert.ReferenceIdeal.Gen Cert.ReferenceIdeal.Read Idealize.ShloMosaic Idealize.ShloMosaic.ValueIdx
open Cert.AttnScores

/-- THE REFERENCE'S RESULT, as a function of its three arguments, is `attnScores` of them. -/
theorem result_eq (x0 x1 : (⟨S2x16x2048x64, .f32⟩ : BufTy).Contents (Elt Ideal))
    (x3 : (⟨S2x16x2048x2048, .i32⟩ : BufTy).Contents (Elt Ideal)) :
    val_main_v17 (F := Ideal) x0 x1 x3 = attnScores x0 x1 x3 := by
  funext y
  obtain ⟨b, h, i, j, rfl⟩ : ∃ (b : Fin 2) (h : Fin 16) (i j : Fin 2048), y = ix4 b h i j := ⟨y 0, y 1, y 2, y 3, eq_ix4 y⟩
  rw [attnScores_ix4]
  -- the operand indices of the contraction, and of the two columns, by coordinates
  have hl : ∀ (kk : Fin 2048) (d : Fin 64), lidx_main_v1 (ix4 b h i kk) d = ix4 b h i d := fun kk d =>
    funext fun a => Fin.ext (by match a with | ⟨0, _⟩ => rfl | ⟨1, _⟩ => rfl | ⟨2, _⟩ => rfl | ⟨3, _⟩ => rfl)
  have hr : ∀ (kk : Fin 2048) (d : Fin 64), ridx_main_v1 (ix4 b h i kk) d = ix4 b h kk d := fun kk d =>
    funext fun a => Fin.ext (by match a with | ⟨0, _⟩ => rfl | ⟨1, _⟩ => rfl | ⟨2, _⟩ => rfl | ⟨3, _⟩ => rfl)
  have hmaxcol : ∀ kk : Fin 2048, idx_main_v10 (idx_main_v11 (ix4 b h i kk)) = ix3 b h i := fun kk =>
    funext fun a => Fin.ext (by match a with | ⟨0, _⟩ => rfl | ⟨1, _⟩ => rfl | ⟨2, _⟩ => rfl)
  have hsumcol : ∀ kk : Fin 2048, idx_main_v15 (idx_main_v16 (ix4 b h i kk)) = ix3 b h i := fun kk =>
    funext fun a => Fin.ext (by match a with | ⟨0, _⟩ => rfl | ⟨1, _⟩ => rfl | ⟨2, _⟩ => rfl)
  have hsumidx : ∀ kk : Fin 2048, idx_main_v14 (ix3 b h i) kk = ix4 b h i kk := fun kk =>
    funext fun a => Fin.ext (by match a with | ⟨0, _⟩ => rfl | ⟨1, _⟩ => rfl | ⟨2, _⟩ => rfl | ⟨3, _⟩ => rfl)
  -- the masked scores
  have hv6 : ∀ kk : Fin 2048, val_main_v6 (F := Ideal) x0 x1 x3 (ix4 b h i kk) = scoreRow x0 x1 x3 b h i kk := fun kk => by
    rw [val_main_v6_apply, val_main_v5_apply, val_main_v4_apply, val_main_c_apply, val_main_call0_v0_apply, val_main_cst_0_apply,
      val_main_v3_apply, val_main_v1_apply, val_main_v2_apply, val_main_v0_apply, val_main_cst_apply]
    have hsum : (∑ d : Fin 64, x0 (lidx_main_v1 (ix4 b h i kk) d) * x1 (ridx_main_v1 (ix4 b h i kk) d))
        = ∑ d : Fin 64, x0 (ix4 b h i d) * x1 (ix4 b h kk d) :=
      Finset.sum_congr rfl fun d _ => by rw [hl kk d, hr kk d]
    rw [hsum]
    show Scalar.select (IntOp.cmpi .eq (x3 (ix4 b h i kk)) 0#32) (Ideal.ofBits .f32 0xC9742400#32)
        (Ideal.div (∑ d : Fin 64, x0 (ix4 b h i d) * x1 (ix4 b h kk d)) (Ideal.sqrt (Ideal.ofBits .f32 0x42800000#32))) = _
    exact congrArg (Scalar.select _ _)
      (scaled_contraction (fun d : Fin 64 => x0 (ix4 b h i d)) (fun d : Fin 64 => x1 (ix4 b h kk d))).symm
  -- the row's maximum: the max-reduce is the fold of `max` over the row
  have hred : S2x16x2048x2048.Reduces [3] S2x16x2048 := by decide
  have hlift : ∀ kk : Fin 2048, hred.lift (ix3 b h i) kk = ix4 b h i kk := fun kk =>
    funext fun a => Fin.ext (by match a with | ⟨0, _⟩ => rfl | ⟨1, _⟩ => rfl | ⟨2, _⟩ => rfl | ⟨3, _⟩ => rfl)
  have hv7 : val_main_v7 (F := Ideal) x0 x1 x3 (ix3 b h i)
      = Finset.univ.fold max (Ideal.ofBits .f32 0xFF800000#32) (scoreRow x0 x1 x3 b h i) := by
    unfold val_main_v7
    refine (Host.reduce_eq_fold_single (FloatOps.maximumf (F := Ideal) (φ := .f32)) _ _ _ hred _ (ix3 b h i)).trans ?_
    show Finset.univ.fold max (Ideal.ofBits .f32 0xFF800000#32) (val_main_v6 (F := Ideal) x0 x1 x3 ∘ hred.lift (ix3 b h i)) = _
    exact congrArg (fun f : Fin 2048 → EReal => Finset.univ.fold max (Ideal.ofBits .f32 0xFF800000#32) f)
      (funext fun kk => by
        show val_main_v6 (F := Ideal) x0 x1 x3 (hred.lift (ix3 b h i) kk) = _
        rw [hlift kk, hv6 kk])
  have hv9 : val_main_v9 (F := Ideal) x0 x1 x3 (ix3 b h i)
      = Finset.univ.fold max (Ideal.ofBits .f32 0xFF800000#32) (scoreRow x0 x1 x3 b h i) := by
    rw [val_main_v9_apply, val_main_v8_apply, val_main_cst_2_apply, hv7]
    exact max_start_fold _ _
  -- the exponentials and their sum
  have hv13 : ∀ kk : Fin 2048, val_main_v13 (F := Ideal) x0 x1 x3 (ix4 b h i kk)
      = Ideal.exp (scoreRow x0 x1 x3 b h i kk
          - Finset.univ.fold max (Ideal.ofBits .f32 0xFF800000#32) (scoreRow x0 x1 x3 b h i)) := fun kk => by
    rw [val_main_v13_apply, val_main_v12_apply, val_main_v11_apply, val_main_v10_apply, hmaxcol kk, hv9, hv6 kk]
    rfl
  have hv14 : val_main_v14 (F := Ideal) x0 x1 x3 (ix3 b h i)
      = ∑ kk : Fin 2048, Ideal.exp (scoreRow x0 x1 x3 b h i kk
          - Finset.univ.fold max (Ideal.ofBits .f32 0xFF800000#32) (scoreRow x0 x1 x3 b h i)) := by
    rw [val_main_v14_apply]
    have hs : (∑ kk : Fin 2048, val_main_v13 (F := Ideal) x0 x1 x3 (idx_main_v14 (ix3 b h i) kk))
        = ∑ kk : Fin 2048, Ideal.exp (scoreRow x0 x1 x3 b h i kk
            - Finset.univ.fold max (Ideal.ofBits .f32 0xFF800000#32) (scoreRow x0 x1 x3 b h i)) :=
      Finset.sum_congr rfl fun kk _ => by rw [hsumidx kk, hv13 kk]
    rw [hs]
    show Ideal.ofBits .f32 0x00000000#32 + _ = _
    rw [Ideal.ofBits_zero_f32, zero_add]
  rw [val_main_v17_apply, val_main_v16_apply, val_main_v15_apply, hsumcol j, hv14, hv13 j]
  rfl

end Cert.AttnScores.Reference

end
-- ==== Proof.lean ====
/- The proof of `Cert.Claim` (proofs.«119219_j32315333935614_2_alg».proof.Defs).
   The kernel computes, for every batch and head, the row-wise softmax of masked scaled scores
   `softmax_j (mask = 0 ? −10⁶ : ∑_d (q·0.125)·k)`, a block of 512 query rows at a time against all 2048 keys; the
   reference computes `softmax_j (mask = 0 ? −10⁶ : (∑_d q·k) / sqrt 64)` on whole arrays. On the extended reals the two
   scores are one number — 0.125 is 1/8, the square root of 64 is 8, and a nonnegative finite factor moves across a
   finite sum whatever the summands (Proof/RowSoftmax.lean) — and the softmax is the same function of a row on both
   sides, so both results are `attnScores` of the arguments (Proof/ScoreSpec.lean): the kernel's by what each grid point
   stores (Proof/BlockBody.lean), the blocks tiling the array (Proof/BlocksToArray.lean) and the host's merging and
   splitting of the batch and head axes around the region (Proof/KernelValue.lean); the reference's one operation at a
   time (Proof/ReferenceValue.lean). The second result, `v`, both programs return as given. The three frames are the
   programs' runs with the results dropped; the idealization rewrote no operation. -/
import proofs.«119219_j32315333935614_2_alg».proof.Defs
import proofs.«119219_j32315333935614_2_alg».proof.Proof.Gen.Kernel
import proofs.«119219_j32315333935614_2_alg».proof.Proof.Gen.Kernel.Skeleton
import proofs.«119219_j32315333935614_2_alg».proof.Proof.Gen.Kernel.Launch
import proofs.«119219_j32315333935614_2_alg».proof.Proof.Gen.Kernel.Points
import proofs.«119219_j32315333935614_2_alg».proof.Proof.Gen.Kernel.Frame
import proofs.«119219_j32315333935614_2_alg».proof.Proof.Gen.KernelIdeal
import proofs.«119219_j32315333935614_2_alg».proof.Proof.Gen.KernelIdeal.Skeleton
import proofs.«119219_j32315333935614_2_alg».proof.Proof.Gen.KernelIdeal.Launch
import proofs.«119219_j32315333935614_2_alg».proof.Proof.Gen.KernelIdeal.Points
import proofs.«119219_j32315333935614_2_alg».proof.Proof.Gen.KernelIdeal.Frame
import proofs.«119219_j32315333935614_2_alg».proof.Proof.Gen.ReferenceIdeal
import proofs.«119219_j32315333935614_2_alg».proof.Proof.Gen.ReferenceIdeal.Run
import proofs.«119219_j32315333935614_2_alg».proof.Proof.Gen.ReferenceIdeal.Read
import proofs.«119219_j32315333935614_2_alg».proof.Proof.Gen.Pre_finite_inputs
import proofs.«119219_j32315333935614_2_alg».proof.Proof.KernelValue
import proofs.«119219_j32315333935614_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with their first result at `attnScores` of arguments that agree, and their second at `v`. -/
theorem algebraic : Cert.algebraic_KernelIdeal_ReferenceIdeal := by
  intro m ρ m' ρ' _ hagree
  refine ⟨fun c => Cert.AttnScores.attnScores (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg2), Cert.AttnScores.run m ρ, ?_⟩
  refine (θ_run Cert.ReferenceIdeal.defs _ _).mono (fun _ h c => ?_) (Cert.ReferenceIdeal.Value.run (F := Ideal) m' ρ')
  obtain ⟨e0, e1, e2, e3⟩ := hagree c
  refine ⟨(h c).1.trans ?_, (h c).2.1.trans e2, (h c).2.2⟩
  rw [Cert.ReferenceIdeal.Read.val_main_v17_eq, Cert.AttnScores.Reference.result_eq, e0, e1, e3]

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
